-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel

variable [Facts]

def fn {F : FTy → Type} [FloatOps F] (main_arg0 : FVec F S4096x32000 .f32) (main_arg1 : FVec F S4096x32000 .f32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  let main_v4 : FVec F S4096x32000 .f32 := Host.absf main_arg1
  let main_cst_0 : FVec F S_ .f32 := constant S_ .f32 0x7F800000#32
  let main_v5 : FVec F S4096x32000 .f32 := broadcastInDim S4096x32000 ![] bcast_S_S4096x32000 main_cst_0
  let main_v6 : IVec S4096x32000 1 := cmpf .olt main_v4 main_v5
  let main_c_1 : IVec S_ 1 := constantI S_ 1 1#1
  let main_v7 : IVec S_ 1 := (fun x v => Host.reduce IntOp.andi x v reducesTo_S4096x32000_S_d0_1 h_S_) main_v6 main_c_1
  let main_v8 : IVec S_ 1 := andi main_v3 main_v7
  main_v8
-- ==== Kernel.lean ====
abbrev S4096x32000 : Shape := ⟨2, ![4096, 32000]⟩
abbrev S4096x1 : Shape := ⟨2, ![4096, 1]⟩
abbrev S256x3200 : Shape := ⟨2, ![256, 3200]⟩
abbrev S256x1 : Shape := ⟨2, ![256, 1]⟩
abbrev S256 : Shape := ⟨1, ![256]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S4096x32000, .f32⟩
  | .hbm, ⟨1, _⟩ => ⟨S4096x32000, .f32⟩
  | .hbm, ⟨2, _⟩ => ⟨S4096x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S256x3200, .f32⟩
  | .local _ .vmem, ⟨1, _⟩ => ⟨S256x3200, .f32⟩
  | .local _ .vmem, ⟨2, _⟩ => ⟨S256x3200, .f32⟩
  | .local _ .vmem, ⟨3, _⟩ => ⟨S256x3200, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 10], ![false, false]⟩

def k0_cond2 (i : grid0.Coords) : BitVec 1 :=
  let arg1 : BitVec 32 := BitVec.ofNat 32 (i 1).val
  let c9_i32 : BitVec 32 := 9#32
  let v27 : BitVec 1 := Scalar.cmpi .eq arg1 c9_i32
  let v28 : BitVec 32 := Scalar.extui v27
  let c0_i32_11 : BitVec 32 := 0#32
  let v29 : BitVec 1 := Scalar.cmpi .ne v28 c0_i32_11
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x3200_S256x3200_0_0 : ∀ a, (![0, 0] : Fin 2 → Nat) a + S256x3200.size a ≤ S256x3200.size a
  h_S256x3200 : 0 < S256x3200.numel
  reduces_S256x3200_S256 : S256x3200.Reduces [1] S256
  shapeCasts_S256_S256x1 : S256.ShapeCasts S256x1
  reducesTo_S4096x1_S_d0_1 : S4096x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3200.size a ≤ S4096x32000.size a
  hwx0_0 : ∀ i : grid0.Coords, EltTy.bits .f32 = 32 ∨ (Rect.block (s := S4096x32000) S256x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x3200.size a ≤ S4096x32000.size a
  hwx0_1 : ∀ i : grid0.Coords, EltTy.bits .f32 = 32 ∨ (Rect.block (s := S4096x32000) S256x3200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)

variable [Facts₀]

abbrev win0_0 : Pipeline.Window sig grid0 :=
  Pipeline.Window.ofSpec (Memref.whole main_arg0) S256x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x3200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x32000 : Shape := ⟨2, ![4096, 32000]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096x32000, .f32⟩
  | .hbm, ⟨2, _⟩ => ⟨S4096x32000, .f32⟩
  | .hbm, ⟨3, _⟩ => ⟨S4096x32000, .f32⟩
  | .hbm, ⟨4, _⟩ => ⟨S_, .f32⟩
  | .hbm, ⟨5, _⟩ => ⟨S4096x32000, .f32⟩
  | .hbm, ⟨6, _⟩ => ⟨S4096x32000, .f32⟩
  | .hbm, ⟨7, _⟩ => ⟨S_, .f32⟩
  | .hbm, ⟨8, _⟩ => ⟨S4096x32000, .f32⟩
  | .hbm, ⟨9, _⟩ => ⟨S4096x32000, .f32⟩
  | .hbm, ⟨10, _⟩ => ⟨S4096x32000, .f32⟩
  | .hbm, ⟨11, _⟩ => ⟨S4096x32000, .f32⟩
  | .hbm, ⟨12, _⟩ => ⟨S_, .f32⟩
  | .hbm, ⟨13, _⟩ => ⟨S4096x32000, .f32⟩
  | .hbm, ⟨14, _⟩ => ⟨S4096x32000, .f32⟩
  | .hbm, ⟨15, _⟩ => ⟨S4096x32000, .f32⟩
  | .hbm, ⟨16, _⟩ => ⟨S4096x32000, .f32⟩
  | .hbm, ⟨17, _⟩ => ⟨S_, .f32⟩
  | .hbm, ⟨18, _⟩ => ⟨S4096x32000, .f32⟩
  | .hbm, ⟨19, _⟩ => ⟨S4096x32000, .f32⟩
  | .hbm, ⟨20, _⟩ => ⟨S4096x32000, .f32⟩
  | .hbm, ⟨21, _⟩ => ⟨S4096x32000, .f32⟩
  | .hbm, ⟨22, _⟩ => ⟨S4096x32000, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel

variable [Facts₀]

class Facts : Prop extends Facts₀ where

variable [Facts]
-- ==== Proof.CaseValues.lean ====
/-
  What each control case of the body leaves behind, as values.

  The body has three control cases along a row block's ten column blocks: the first point (the accumulator column is
  zeroed, then added into), the middle points (added into), the last point (added into, then copied to the output
  block). In every case the column the body leaves in its accumulator is ONE stored value: the old column plus the
  point's row sums, over the two input blocks exactly as they were loaded — at the first point with the zero block it
  has just stored in the place of the old column. At the last point the output block holds that same value, read back
  from the accumulator. Each statement below is for any float values: it only says which stored term is read, through
  stores and loads that each cover a whole buffer from offset zero.
-/
import proofs.«161677_j69707319214415_2_alg».proof.Proof.Gen.KernelIdeal.Frame
import Idealize.ShloMosaic.Lib.Pipeline.Value
import Idealize.ShloMosaic.Lib.Tactic

set_option maxRecDepth 16384

noncomputable section

namespace Cert.KernelIdeal.CaseValues

open Cert.KernelIdeal Cert.KernelIdeal.Gen Idealize.ShloMosaic Idealize.ShloMosaic.TcCoe Idealize.ShloMosaic.Tactic
open Idealize.SL.Sem

variable {F : FTy → Type} [FloatOps F]

/-- Every access of the body starts at offset zero on both axes. -/
theorem offsets_zero : (![0, 0] : Fin 2 → Nat) = fun _ => 0 := funext fun a => by fin_cases a <;> rfl

/-- First point of a row block: the accumulator ends at the zero block plus the point's row sums. -/
theorem first_leaves (c : Dev nD) (i : grid0.Coords) (arg2 : Memref sig .tc .vmem S256x3200 .f32) (harg2 : arg2.IsWhole) (arg3 : Memref sig .tc .vmem S256x3200 .f32) (harg3 : arg3.IsWhole) (arg4 : Memref sig .tc .vmem S256x1 .f32) (harg4 : arg4.IsWhole) (arg5 : Memref sig .tc .vmem S256x1 .f32) (harg5 : arg5.IsWhole) (hc0 : cond0_0 i) (hc1 : ¬cond0_1 i)
    (x0 : Vec F S256x3200 .f32) (x1 : Vec F S256x3200 .f32) :
    sout0_A_0 c i arg2 harg2 arg3 harg3 arg4 harg4 arg5 harg5 hc0 hc1 x0 x1 = k0_pay2 x0 x1 k0_pay1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S256x1) offsets_zero, View.readCov_unit_zero (S := S256x1) _ offsets_zero]
  simp only [View.readAt_eq_ld, harg2.read_unread, harg3.read_unread, View.ld_unit_zero (S := S256x3200) offsets_zero]

/-- A middle point: the accumulator ends at what the point before left plus the point's row sums. -/
theorem middle_leaves (c : Dev nD) (i : grid0.Coords) (arg2 : Memref sig .tc .vmem S256x3200 .f32) (harg2 : arg2.IsWhole) (arg3 : Memref sig .tc .vmem S256x3200 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : ¬cond0_1 i)
    (x0 : Vec F S256x3200 .f32) (x1 : Vec F S256x3200 .f32) (xs0 : Vec F S256x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero offsets_zero]
  simp only [View.readAt_eq_ld, harg2.read_unread, harg3.read_unread, harg5.read_unread,
    View.ld_unit_zero (S := S256x3200) offsets_zero, View.ld_unit_zero (S := S256x1) offsets_zero]

/-- The last point: the accumulator likewise, -/
theorem last_leaves (c : Dev nD) (i : grid0.Coords) (arg2 : Memref sig .tc .vmem S256x3200 .f32) (harg2 : arg2.IsWhole) (arg3 : Memref sig .tc .vmem S256x3200 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : cond0_1 i)
    (x0 : Vec F S256x3200 .f32) (x1 : Vec F S256x3200 .f32) (xs0 : Vec F S256x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero offsets_zero]
  simp only [View.readAt_eq_ld, harg2.read_unread, harg3.read_unread, harg5.read_unread,
    View.ld_unit_zero (S := S256x3200) offsets_zero, View.ld_unit_zero (S := S256x1) offsets_zero]

/-- and the output block holds the same value, read back from the accumulator. -/
theorem last_writes (c : Dev nD) (i : grid0.Coords) (arg2 : Memref sig .tc .vmem S256x3200 .f32) (harg2 : arg2.IsWhole) (arg3 : Memref sig .tc .vmem S256x3200 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : cond0_1 i)
    (x0 : Vec F S256x3200 .f32) (x1 : Vec F S256x3200 .f32) (xs0 : Vec F S256x1 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero offsets_zero, View.readCov_unit_zero (S := S256x1) _ offsets_zero]
  simp only [View.readAt_eq_ld, harg2.read_unread, harg3.read_unread, harg5.read_unread,
    View.ld_unit_zero (S := S256x3200) offsets_zero, View.ld_unit_zero (S := S256x1) offsets_zero]

end Cert.KernelIdeal.CaseValues

end
-- ==== Proof.JsdTerm.lean ====
/-
  One term of the Jensen–Shannon sum, for a pair of log-probabilities `x`, `y`, in the two arrangements met here, and
  the law that joins them.

  With `P = eˣ`, `Q = eʸ`, `h` the number the word `0x3F000000` denotes (one half) and `M = h·P + h·Q` the mixture:

    * gathered form:    `h·(P·x + Q·y) − M·log M`
    * term-by-term form: `(h·P)·(x − log M) + (h·Q)·(y − log M)`

  Expanding the second gives `h·P·x + h·Q·y − (h·P + h·Q)·log M`, the first. The expansion distributes a product
  over a difference, which on the extended reals fails at the infinities; it is proved for REAL `x`, `y`, where
  `P`, `Q` are positive reals, so `M` is a positive real and `log M` a real, and the identity is one of real numbers.
-/
import Idealize.ShloMosaic.PureOps.Ideal

noncomputable section

namespace Cert.Jsd

open Idealize.ShloMosaic

/-- The word `0x3F000000` denotes the real number one half. -/
theorem half_eq : Ideal.ofBits .f32 0x3F000000#32 = ((1 / 2 : ℝ) : EReal) := by
  simp [Ideal.ofBits, Ideal.ieee, -EReal.coe_mul]; norm_num

/-- The mixture `h·eˣ + h·eʸ`. -/
def mix (x y : EReal) : EReal :=
  Ideal.ofBits .f32 0x3F000000#32 * Ideal.exp x + Ideal.ofBits .f32 0x3F000000#32 * Ideal.exp y

/-- The gathered form `h·(eˣ·x + eʸ·y) − M·log M`. -/
def gathered (x y : EReal) : EReal :=
  Ideal.ofBits .f32 0x3F000000#32 * (Ideal.exp x * x + Ideal.exp y * y) - mix x y * Ideal.log (mix x y)

/-- The term-by-term form `(h·eˣ)·(x − log M) + (h·eʸ)·(y − log M)`. -/
def termwise (x y : EReal) : EReal :=
  Ideal.ofBits .f32 0x3F000000#32 * Ideal.exp x * (x - Ideal.log (mix x y))
    + Ideal.ofBits .f32 0x3F000000#32 * Ideal.exp y * (y - Ideal.log (mix x y))

/-- On real arguments the mixture is the real number `eᵃ/2 + eᵇ/2`. -/
theorem mix_coe (a b : ℝ) : mix a b = ((1 / 2 * Real.exp a + 1 / 2 * Real.exp b : ℝ) : EReal) := by
  unfold mix
  rw [half_eq, Ideal.exp_coe, Ideal.exp_coe, ← EReal.coe_mul, ← EReal.coe_mul, ← EReal.coe_add]

/-- which is positive, -/
theorem mix_pos (a b : ℝ) : 0 < 1 / 2 * Real.exp a + 1 / 2 * Real.exp b := by positivity

/-- so its logarithm is a real number. -/
theorem log_mix_coe (a b : ℝ) :
    Ideal.log (mix a b) = ((Real.log (1 / 2 * Real.exp a + 1 / 2 * Real.exp b) : ℝ) : EReal) := by
  rw [mix_coe, Ideal.log_coe, if_neg (not_le.mpr (mix_pos a b))]

/-- The two forms agree on real arguments: every quantity in them is then a real number, and between real numbers
    the identity is the expansion of the two products. -/
theorem gathered_eq_termwise (a b : ℝ) : gathered a b = termwise a b := by
  unfold gathered termwise
  rw [log_mix_coe, mix_coe, half_eq, Ideal.exp_coe, Ideal.exp_coe]
  simp only [← EReal.coe_mul, ← EReal.coe_add, ← EReal.coe_sub]
  exact congrArg _ (by ring)

end Cert.Jsd

end
-- ==== Proof.RowStep.lean ====
/-
  What one run of the body adds to a row of its accumulator.

  The body holds a [256, 1] column of running row sums. At a grid point it reads the two [256, 3200] blocks `x`, `y` of
  log-probabilities, forms the gathered Jensen–Shannon term of every pair, sums each row over its 3200 lanes, and stores
  the old column plus these row sums. Read at row `r` (the column's second coordinate is its only one):

      stored (r, ·) = old (r, ·) + ∑ₖ gathered (x (r, k)) (y (r, k)).

  At a row block's first point the old column is the zero block the body has just stored there, which reads `0`.
  Two layout facts carry the reading: a [256] vector recast as a [256, 1] column reads at `(r, ·)` the vector at `r`
  (the row-major positions agree, the second coordinate being `0`), and the sum along axis 1 of a [256, 3200] block at
  `r` is the sum over `k` of the block at `(r, k)`.
-/
import proofs.«161677_j69707319214415_2_alg».proof.Proof.Gen.KernelIdeal.Skeleton
import proofs.«161677_j69707319214415_2_alg».proof.Proof.JsdTerm
import Idealize.ShloMosaic.Lib.ValueIdx
import Idealize.ShloMosaic.Lib.Pipeline.Value
import Idealize.ShloMosaic.PureOps.Ideal.Laws

noncomputable section

namespace Cert.KernelIdeal.RowStep

open Cert.KernelIdeal Cert.KernelIdeal.Gen Idealize.ShloMosaic Idealize.ShloMosaic.ValueIdx

/-- A [256] vector recast as a [256, 1] column reads, at `(r, z)`, the vector at `r`. -/
theorem column_apply {α : Type} (x : S256.Idx → α) (h : S256.ShapeCasts S256x1) (r : Fin 256) (z : Fin 1) :
    shapeCast S256x1 x h (ix2 r z) = x (ix1 r) :=
  shapeCast_apply x h _ _ (by
    have hz : z.val = 0 := by omega
    rw [Shape.rowMajor_val_two, Shape.rowMajor_val_one]
    show r.val = r.val * 1 + z.val
    omega)

/-- The sum along axis 1 of a [256, 3200] block, at row `r`, is the sum over the lanes `k` of the block at `(r, k)`. -/
theorem lane_sum_apply (src : FVec Ideal S256x3200 .f32) (h : S256x3200.Reduces [1] S256) (hφ : FKind.Formats .f32)
    (hacc : (0x00000000#32 : BitVec 32) = 0x00000000#32) (r : Fin 256) :
    multiReduction .add [1] S256 src 0x00000000#32 h hφ hacc (ix1 r) = ∑ k : Fin 3200, src (ix2 r k) :=
  (Ideal.multiReduction_add_single src 0x00000000#32 h hφ hacc (ix1 r)).trans
    (Finset.sum_congr rfl fun k _ => congrArg src (funext fun a => by
      match a with
      | ⟨0, _⟩ => rfl
      | ⟨1, _⟩ => rfl))

/-- The zero block reads `0` everywhere. -/
theorem zero_block_apply (r : Fin 256) (z : Fin 1) : k0_pay1 (F := Ideal) (ix2 r z) = 0 := by
  unfold k0_pay1
  refine (congrFun (shapeCast_self _ _) (ix2 r z)).trans ?_
  exact Ideal.ofBits_zero_f32

/-- The stored column at row `r`: the old column there plus the row's sum of gathered terms. -/
theorem stored_apply (x y : Vec Ideal S256x3200 .f32) (old : Vec Ideal S256x1 .f32) (r : Fin 256) (z : Fin 1) :
    k0_pay2 (F := Ideal) x y old (ix2 r z)
      = old (ix2 r z) + ∑ k : Fin 3200, Cert.Jsd.gathered (x (ix2 r k)) (y (ix2 r k)) := by
  unfold k0_pay2
  refine (congrFun (shapeCast_self _ _) (ix2 r z)).trans ?_
  refine (addf_apply _ _ _).trans ?_
  refine congrArg (old (ix2 r z) + ·) ?_
  refine (column_apply _ _ r z).trans ?_
  refine (lane_sum_apply _ _ _ _ r).trans ?_
  exact Finset.sum_congr rfl fun k _ => rfl

end Cert.KernelIdeal.RowStep

end
-- ==== Proof.JsdTotal.lean ====
/-
  The Jensen–Shannon total over a [4096, 32000] pair of arrays, in the two groupings met here.

  One grouping sums the term-by-term form over every index of the array at once. The other first forms, for each row
  `R`, the sum of the gathered form over ten column blocks of 3200 lanes — column `3200·s + k` is lane `k` of block `s`
  — added block by block onto `0`, and then sums the 4096 row sums (kept as a [4096, 1] column).

  The two totals agree when every entry of both arrays is a real number: entry by entry the two forms of the term
  agree (the real-number identity of the term's two forms), and regrouping a finite sum — rows, then column blocks, then lanes —
  uses only that addition on the extended reals is commutative and associative: the index `(R, C)` with
  `C = 3200·s + k` is met exactly once either way.
-/
import proofs.«161677_j69707319214415_2_alg».proof.Proof.JsdTerm
import Idealize.ShloMosaic.Lib.ValueIdx

noncomputable section

namespace Cert.Jsd

open Idealize.ShloMosaic Idealize.ShloMosaic.ValueIdx

/-- A [4096, 32000] array of extended reals. -/
abbrev Arr : Type := (⟨2, ![4096, 32000]⟩ : Shape).Idx → EReal

/-- Lane `k` of column block `s` is column `3200·s + k`. -/
def col (s : Fin 10) (k : Fin 3200) : Fin 32000 :=
  ⟨3200 * s.val + k.val, by have := s.isLt; have := k.isLt; omega⟩

/-- A sum over the 32000 columns is the sum over the ten blocks of the sums over their 3200 lanes. -/
theorem sum_cols {M : Type*} [AddCommMonoid M] (f : Fin 32000 → M) :
    ∑ C : Fin 32000, f C = ∑ s : Fin 10, ∑ k : Fin 3200, f (col s k) := by
  have e : ∑ C : Fin 32000, f C = ∑ p : Fin 10 × Fin 3200, f (finProdFinEquiv p) :=
    (Equiv.sum_comp (finProdFinEquiv (m := 10) (n := 3200)) f).symm
  rw [e, Fintype.sum_prod_type]
  refine Finset.sum_congr rfl fun s _ => Finset.sum_congr rfl fun k _ => congrArg f (Fin.ext ?_)
  show k.val + 3200 * s.val = 3200 * s.val + k.val
  omega

/-- Row `R`'s sum of the gathered form over column block `s` (and `0` past the tenth block, so that the running
    sums below range over the naturals). -/
def blockSum (P Q : Arr) (R : Fin 4096) (s : ℕ) : EReal :=
  if h : s < 10 then ∑ k : Fin 3200, gathered (P (ix2 R (col ⟨s, h⟩ k))) (Q (ix2 R (col ⟨s, h⟩ k))) else 0

theorem blockSum_of_lt (P Q : Arr) (R : Fin 4096) (s : Fin 10) :
    blockSum P Q R s.val = ∑ k : Fin 3200, gathered (P (ix2 R (col s k))) (Q (ix2 R (col s k))) :=
  dif_pos s.isLt

/-- The [4096, 1] column of row sums: `0` plus the ten block sums of the row, in order. -/
def rowSums (P Q : Arr) : (⟨2, ![4096, 1]⟩ : Shape).Idx → EReal :=
  fun i => 0 + ∑ s ∈ Finset.range 10, blockSum P Q (i 0) s

theorem rowSums_apply (P Q : Arr) (R : Fin 4096) (z : Fin 1) :
    rowSums P Q (ix2 R z) = 0 + ∑ s ∈ Finset.range 10, blockSum P Q R s := rfl

/-- THE TWO TOTALS AGREE on arrays of real numbers. -/
theorem sum_rowSums_eq (P Q : Arr) (hP : ∀ j, ∃ a : ℝ, P j = (a : EReal)) (hQ : ∀ j, ∃ b : ℝ, Q j = (b : EReal)) :
    ∑ i, rowSums P Q i = ∑ j, termwise (P j) (Q j) := by
  rw [sum_idx2, sum_idx2]
  refine Finset.sum_congr rfl fun R _ => ?_
  rw [Fin.sum_univ_one, rowSums_apply, zero_add, Finset.sum_range, sum_cols]
  refine Finset.sum_congr rfl fun s _ => ?_
  rw [blockSum_of_lt]
  refine Finset.sum_congr rfl fun k _ => ?_
  obtain ⟨a, ha⟩ := hP (ix2 R (col s k))
  obtain ⟨b, hb⟩ := hQ (ix2 R (col s k))
  rw [ha, hb]
  exact gathered_eq_termwise a b

end Cert.Jsd

end
-- ==== Proof.Accum.lean ====
/-
  The accumulator column after every grid point, in closed form.

  The grid's 160 points are the pairs (row block `q`, column block `s`) in the order `t = 10·q + s`. At point `t` the
  two input blocks are rows `256·q … 256·q + 255` and columns `3200·s … 3200·s + 3199` of the two argument arrays, so
  the row sums the point adds at local row `r` are the array row `256·q + r`'s sum of gathered terms over column
  block `s`. The accumulator restarts from the zero block at `s = 0` and carries over otherwise; by induction on the
  point, after point `10·q + s` its row `r` holds `0` plus the block sums of array row `256·q + r` over the column
  blocks `0 … s`. At `s = 9` the output block holds the same column.
-/
import proofs.«161677_j69707319214415_2_alg».proof.Proof.CaseValues
import proofs.«161677_j69707319214415_2_alg».proof.Proof.RowStep
import proofs.«161677_j69707319214415_2_alg».proof.Proof.JsdTotal

set_option maxRecDepth 16384

noncomputable section

namespace Cert.KernelIdeal.Accum

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- The two argument arrays as the region finds them. -/
abbrev argP (c : Dev nD) : Cert.Jsd.Arr := V m c main_arg0
abbrev argQ (c : Dev nD) : Cert.Jsd.Arr := V m c main_arg1

/-- Where the three windows' blocks sit at point `t`: the inputs at (row block `t / 10`, column block `t % 10`), the
    output at row block `t / 10` of the one column — decided over the grid. -/
theorem index_facts : ∀ t : Fin cfg0.N,
    win0_0.index t (0 : Fin 2) = t.val / 10 ∧ win0_0.index t (1 : Fin 2) = t.val % 10
    ∧ win0_1.index t (0 : Fin 2) = t.val / 10 ∧ win0_1.index t (1 : Fin 2) = t.val % 10
    ∧ win0_2.index t (0 : Fin 2) = t.val / 10 ∧ win0_2.index t (1 : Fin 2) = 0 :=
  (by decide +kernel : ∀ t : Fin grid0.N, _)

theorem point_lt (t : Fin cfg0.N) : t.val < 160 := lt_of_lt_of_eq t.isLt (show cfg0.N = 160 from N_0)

/-- Array row `256·q + r` (for `q < 16`; reduced mod 4096 so that it is a row for every `q`). -/
def rowOf (q : ℕ) (r : Fin 256) : Fin 4096 := ⟨(256 * q + r.val) % 4096, Nat.mod_lt _ (by norm_num)⟩

/-- The first input block at point `t`, read at `(r, k)`: the first array at (row `256·(t/10) + r`, lane `k` of column block `t % 10`). -/
theorem blockP_apply (c : Dev nD) (t : Fin cfg0.N) (r : Fin 256) (k : Fin 3200) :
    (iblk m c 0 t : Vec Ideal S256x3200 .f32) (ix2 r k)
      = argP m c (ix2 (rowOf (t.val / 10) r) (Cert.Jsd.col ⟨t.val % 10, Nat.mod_lt _ (by norm_num)⟩ k)) := by
  obtain ⟨e0, e1, -⟩ := index_facts t
  have hN := point_lt t
  have hr := r.isLt
  unfold iblk
  rw [View.read_apply]
  show V m c main_arg0 _ = V m c main_arg0 _
  refine congrArg _ (funext fun a => Fin.ext ?_)
  match a with
  | ⟨0, _⟩ => show win0_0.index t 0 * 256 + 1 * r.val = (256 * (t.val / 10) + r.val) % 4096; rw [e0]; omega
  | ⟨1, _⟩ => show win0_0.index t 1 * 3200 + 1 * k.val = 3200 * (t.val % 10) + k.val; rw [e1]; omega

/-- The second input block likewise. -/
theorem blockQ_apply (c : Dev nD) (t : Fin cfg0.N) (r : Fin 256) (k : Fin 3200) :
    (iblk m c 1 t : Vec Ideal S256x3200 .f32) (ix2 r k)
      = argQ m c (ix2 (rowOf (t.val / 10) r) (Cert.Jsd.col ⟨t.val % 10, Nat.mod_lt _ (by norm_num)⟩ k)) := by
  obtain ⟨-, -, e2, e3, -⟩ := index_facts t
  have hN := point_lt t
  have hr := r.isLt
  unfold iblk
  rw [View.read_apply]
  show V m c main_arg1 _ = V m c main_arg1 _
  refine congrArg _ (funext fun a => Fin.ext ?_)
  match a with
  | ⟨0, _⟩ => show win0_1.index t 0 * 256 + 1 * r.val = (256 * (t.val / 10) + r.val) % 4096; rw [e2]; omega
  | ⟨1, _⟩ => show win0_1.index t 1 * 3200 + 1 * k.val = 3200 * (t.val % 10) + k.val; rw [e3]; omega

/-- So the row sums point `t` adds at local row `r` are array row `256·(t/10) + r`'s block sum over column block `t % 10`. -/
theorem point_sum (c : Dev nD) (t : Fin cfg0.N) (r : Fin 256) :
    ∑ k : Fin 3200, Cert.Jsd.gathered ((iblk m c 0 t : Vec Ideal S256x3200 .f32) (ix2 r k)) ((iblk m c 1 t : Vec Ideal S256x3200 .f32) (ix2 r k))
      = Cert.Jsd.blockSum (argP m c) (argQ m c) (rowOf (t.val / 10) r) (t.val % 10) := by
  unfold Cert.Jsd.blockSum
  rw [dif_pos (Nat.mod_lt _ (by norm_num))]
  exact Finset.sum_congr rfl fun k _ => by rw [blockP_apply m c t r k, blockQ_apply m c t r k]

/-- At a row block's first point the accumulator restarts: `0` plus the point's block sums. -/
theorem acc_first (c : Dev nD) (t : Fin cfg0.N) (h0 : t.val % 10 = 0) (r : Fin 256) (z : Fin 1) :
    (outsAt0 m c t.val t.isLt).2 (ix2 r z)
      = 0 + Cert.Jsd.blockSum (argP m c) (argQ m c) (rowOf (t.val / 10) r) (t.val % 10) := by
  have h1 : ¬t.val % 10 = 9 := by omega
  rw [outsAt0_A m c t h0 h1]
  dsimp only
  refine (congrFun (CaseValues.first_leaves (F := Ideal) c (grid0.coords t) (ms0_0 t) (hs0_0 t) (ms0_1 t) (hs0_1 t) (ms0_2 t) (hs0_2 t)
    scM0_0 (Memref.isWhole_whole _) ((hcond0_0 t).mpr h0) (fun h => h1 ((hcond0_1 t).mp h)) (iblk m c 0 t) (iblk m c 1 t)) (ix2 r z)).trans ?_
  refine (RowStep.stored_apply (iblk m c 0 t) (iblk m c 1 t) (k0_pay1 (F := Ideal)) r z).trans ?_
  rw [RowStep.zero_block_apply, point_sum m c t r]

/-- At every other point it carries over: what the point before left plus the point's block sums. -/
theorem acc_next (c : Dev nD) (t : Fin cfg0.N) (h0 : ¬t.val % 10 = 0) (r : Fin 256) (z : Fin 1) :
    (outsAt0 m c t.val t.isLt).2 (ix2 r z)
      = (outsAt0 m c (t.val - 1) (Nat.lt_of_le_of_lt (Nat.sub_le _ _) t.isLt)).2 (ix2 r z)
        + Cert.Jsd.blockSum (argP m c) (argQ m c) (rowOf (t.val / 10) r) (t.val % 10) := by
  by_cases h1 : t.val % 10 = 9
  · rw [outsAt0_C m c t h0 h1]
    dsimp only
    refine (congrFun (CaseValues.last_leaves (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2) (ix2 r z)).trans ?_
    refine (RowStep.stored_apply (iblk m c 0 t) (iblk m c 1 t) _ r z).trans ?_
    rw [point_sum m c t r]
  · rw [outsAt0_B m c t h0 h1]
    dsimp only
    refine (congrFun (CaseValues.middle_leaves (F := Ideal) c (grid0.coords t) (ms0_0 t) (hs0_0 t) (ms0_1 t) (hs0_1 t) (ms0_2 t) (hs0_2 t)
      scM0_0 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2) (ix2 r z)).trans ?_
    refine (RowStep.stored_apply (iblk m c 0 t) (iblk m c 1 t) _ r z).trans ?_
    rw [point_sum m c t r]

/-- At a row block's last point the output block holds the accumulator's column. -/
theorem out_last (c : Dev nD) (t : Fin cfg0.N) (h1 : t.val % 10 = 9) :
    (outsAt0 m c t.val t.isLt).1 = (outsAt0 m c t.val t.isLt).2 := by
  have h0 : ¬t.val % 10 = 0 := by omega
  rw [outsAt0_C m c t h0 h1]
  dsimp only
  rw [CaseValues.last_writes, CaseValues.last_leaves]

/-- THE CLOSED FORM, by induction on the point: after point `n` row `r` of the accumulator is `0` plus the block sums
    of array row `256·(n/10) + r` over the column blocks `0 … n % 10`. -/
theorem acc_closed (c : Dev nD) : ∀ (n : ℕ) (hn : n < cfg0.N) (r : Fin 256) (z : Fin 1),
    (outsAt0 m c n hn).2 (ix2 r z)
      = 0 + ∑ s ∈ Finset.range (n % 10 + 1), Cert.Jsd.blockSum (argP m c) (argQ m c) (rowOf (n / 10) r) s
  | 0, hn, r, z => by
    refine (acc_first m c ⟨0, hn⟩ rfl r z).trans ?_
    show 0 + Cert.Jsd.blockSum _ _ (rowOf (0 / 10) r) (0 % 10) = 0 + ∑ s ∈ Finset.range (0 % 10 + 1), _
    rw [Nat.zero_mod, Finset.sum_range_one]
  | n + 1, hn, r, z => by
    by_cases h0 : (n + 1) % 10 = 0
    · refine (acc_first m c ⟨n + 1, hn⟩ h0 r z).trans ?_
      show 0 + Cert.Jsd.blockSum _ _ (rowOf ((n + 1) / 10) r) ((n + 1) % 10) = _
      rw [h0, Finset.sum_range_one]
    · refine (acc_next m c ⟨n + 1, hn⟩ h0 r z).trans ?_
      show (outsAt0 m c n _).2 (ix2 r z) + Cert.Jsd.blockSum _ _ (rowOf ((n + 1) / 10) r) ((n + 1) % 10) = _
      rw [acc_closed c n _ r z]
      have e1 : (n + 1) % 10 = n % 10 + 1 := by omega
      have e2 : (n + 1) / 10 = n / 10 := by omega
      rw [e1, e2, Finset.sum_range_succ _ (n % 10 + 1), add_assoc]

end Cert.KernelIdeal.Accum

end
-- ==== Proof.RowArray.lean ====
/-
  The kernel's output array after the run: the [4096, 1] column of row sums.

  The output window is written back only at the last point `10·q + 9` of each row block `q`, and its block there is
  rows `256·q … 256·q + 255` of the one column. What is written back is the accumulator's column after that point:
  at local row `r`, `0` plus the ten block sums of array row `256·q + r` — the row-sum column read at that row. The
  sixteen written blocks cover the array (row `R` lies in the block of point `10·(R / 256) + 9`), so the array ends
  holding the row-sum column of the two argument arrays.
-/
import proofs.«161677_j69707319214415_2_alg».proof.Proof.Accum

set_option maxRecDepth 16384

noncomputable section

namespace Cert.KernelIdeal.RowArray

open Cert.KernelIdeal Cert.KernelIdeal.Gen Cert.KernelIdeal.Accum Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ)

/-- What a writing point `t` writes back is its block of the row-sum column. -/
theorem flushed_eq (c : Dev nD) (t : Fin cfg0.N) (hf : (cfg0.win 2).flush t = true) :
    (dats m 0 c).flushed 2 t
      = ((cfg0.win 2).blk t).view.read (Elt Ideal) (Cert.Jsd.rowSums (argP m c) (argQ m c)) := by
  have h9 : t.val % 10 = 9 := (flush0_2 t).mp hf
  obtain ⟨-, -, -, -, e4, e5⟩ := index_facts t
  have hN := point_lt t
  show (cfg0.win 2).cut (grid0.coords t) ((dats m 0 c).after 2 t) = _
  rw [after0_2, out_last m c t h9]
  funext y
  obtain ⟨r, z, rfl⟩ : ∃ (r : Fin 256) (z : Fin 1), y = ix2 r z := ⟨y 0, y 1, eq_ix2 y⟩
  have hr := r.isLt
  have hz := z.isLt
  show (outsAt0 m c t.val t.isLt).2 (ix2 r z)
    = Cert.Jsd.rowSums (argP m c) (argQ m c) (((cfg0.win 2).blk t).view.emb (ix2 r z))
  have hemb : ((cfg0.win 2).blk t).view.emb (ix2 r z) = ix2 (rowOf (t.val / 10) r) z :=
    funext fun a => Fin.ext (by
      match a with
      | ⟨0, _⟩ => show win0_2.index t 0 * 256 + 1 * r.val = (256 * (t.val / 10) + r.val) % 4096; rw [e4]; omega
      | ⟨1, _⟩ => show win0_2.index t 1 * 1 + 1 * z.val = z.val; rw [e5]; omega)
  rw [hemb, Cert.Jsd.rowSums_apply, acc_closed m c t.val t.isLt r z, h9]

/-- An index of the array is in point `t`'s block iff each coordinate is in the block's range on its axis. -/
theorem mem_block (t : Fin cfg0.N) (i : S4096x1.Idx) :
    i ∈ ((cfg0.win 2).blk t).view.set
      ↔ ∀ a : Fin 2, win0_2.index t a * S256x1.size a ≤ (i a).val ∧ (i a).val < win0_2.index t a * S256x1.size a + S256x1.size a := by
  show i ∈ ((View.whole main_v0).slice (win0_2.rect t)).set ↔ _
  rw [View.set_slice_whole, Rect.mem_set_unit]
  exact Iff.rfl

/-- Every row lies in the block some writing point writes back. -/
theorem covered (i : S4096x1.Idx) :
    ∃ t : Fin cfg0.N, (cfg0.win 2).flush t = true ∧ i ∈ ((cfg0.win 2).blk t).view.set := by
  have hi0 : (i 0).val < 4096 := (i 0).isLt
  have hi1 : (i 1).val < 1 := (i 1).isLt
  have hN : cfg0.N = 160 := N_0
  have ht : 10 * ((i 0).val / 256) + 9 < cfg0.N := by omega
  obtain ⟨-, -, -, -, e4, e5⟩ := index_facts ⟨10 * ((i 0).val / 256) + 9, ht⟩
  refine ⟨⟨10 * ((i 0).val / 256) + 9, ht⟩, (flush0_2 _).mpr (by show (10 * ((i 0).val / 256) + 9) % 10 = 9; omega), ?_⟩
  rw [mem_block]
  intro a
  match a with
  | ⟨0, _⟩ =>
    show win0_2.index ⟨10 * ((i 0).val / 256) + 9, ht⟩ 0 * 256 ≤ (i 0).val
      ∧ (i 0).val < win0_2.index ⟨10 * ((i 0).val / 256) + 9, ht⟩ 0 * 256 + 256
    rw [e4]
    show (10 * ((i 0).val / 256) + 9) / 10 * 256 ≤ (i 0).val ∧ (i 0).val < (10 * ((i 0).val / 256) + 9) / 10 * 256 + 256
    omega
  | ⟨1, _⟩ =>
    show win0_2.index ⟨10 * ((i 0).val / 256) + 9, ht⟩ 1 * 1 ≤ (i 1).val
      ∧ (i 1).val < win0_2.index ⟨10 * ((i 0).val / 256) + 9, ht⟩ 1 * 1 + 1
    rw [e5]
    omega

/-- THE OUTPUT ARRAY after the run is the row-sum column of the two argument arrays. -/
theorem final_rows (c : Dev nD) : (dats m 0 c).arrAt 2 cfg0.N = Cert.Jsd.rowSums (argP m c) (argQ m c) :=
  (dats m 0 c).arrAt_eq_of_cover 2 (Cert.Jsd.rowSums (argP m c) (argQ m c)) (flushed_eq m c) covered

end Cert.KernelIdeal.RowArray

end
-- ==== Proof.JsdMean.lean ====
/-
  The mean both programs return, as one function of the total, and the common result.

  Both programs finish the same way: the total is added onto the zero word and divided by the word of 4096. Those two
  words are never evaluated: the same function `meanOf` is applied to the two totals, which agree on arrays of reals.
-/
import proofs.«161677_j69707319214415_2_alg».proof.Proof.JsdTotal

noncomputable section

namespace Cert.Jsd

open Idealize.ShloMosaic

/-- The zero word plus the total, over the word of 4096. -/
def meanOf (T : EReal) : EReal :=
  Ideal.div (Ideal.ofBits .f32 0x00000000#32 + T) (Ideal.ofBits .f32 0x45800000#32)

/-- THE RESULT: the mean of the term-by-term total, as a rank-0 array. -/
def result (P Q : Arr) : (⟨0, ![]⟩ : Shape).Idx → EReal := fun _ => meanOf (∑ j, termwise (P j) (Q j))

/-- The mean of the summed row sums is the result, on arrays of real numbers. -/
theorem mean_rowSums_eq (P Q : Arr) (hP : ∀ j, ∃ a : ℝ, P j = (a : EReal)) (hQ : ∀ j, ∃ b : ℝ, Q j = (b : EReal)) :
    (fun _ : (⟨0, ![]⟩ : Shape).Idx => meanOf (∑ i, rowSums P Q i)) = result P Q := by
  unfold result
  rw [sum_rowSums_eq P Q hP hQ]

end Cert.Jsd

end
-- ==== Proof.KernelMean.lean ====
/-
  The kernel's program, run: its result is the mean of the summed row sums.

  After the grid the output array is the row-sum column of the two argument arrays. The four host operations that
  follow sum that column from the zero word and divide by the word of 4096: the host's sum into a rank-0 result is the
  initial value plus the sum over every index of the column.
-/
import proofs.«161677_j69707319214415_2_alg».proof.Proof.RowArray
import proofs.«161677_j69707319214415_2_alg».proof.Proof.JsdMean
import Idealize.ShloMosaic.Lib.StableHlo.Run
import Idealize.ShloMosaic.PureOps.Ideal.Laws

set_option maxRecDepth 16384

noncomputable section

namespace Cert.KernelIdeal.Mean

open Cert.KernelIdeal Cert.KernelIdeal.Gen Cert.KernelIdeal.Accum Idealize.ShloMosaic Idealize.ShloMosaic.TcCoe
open Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The host's sum of a [4096, 1] column from the zero word, divided by the word of 4096, is the mean of the column's total. -/
theorem host_mean_apply (R : FVec Ideal S4096x1 .f32) (i : S_.Idx) :
    Host.divf (F := Ideal) (Host.reduceAdd (F := Ideal) R (constant (F := Ideal) S_ .f32 0x00000000#32) reducesTo_S4096x1_S_d0_1 h_S_)
      (constant (F := Ideal) S_ .f32 0x45800000#32) i = Cert.Jsd.meanOf (∑ j, R j) := by
  show Ideal.div (Host.reduceAdd (F := Ideal) R (constant (F := Ideal) S_ .f32 0x00000000#32) reducesTo_S4096x1_S_d0_1 h_S_ i)
    (Ideal.ofBits .f32 0x45800000#32) = _
  unfold Cert.Jsd.meanOf
  refine congrArg (fun T => Ideal.div T (Ideal.ofBits .f32 0x45800000#32)) ?_
  simp only [Host.reduceAdd, Ideal.hostReduceAdd_def]
  exact Ideal.hostReduceAdd_total reducesTo_S4096x1_S_d0_1 (fun b => b.elim0) R _ i

/-- What the lines after the grid leave in the result buffer. -/
theorem tail_value (c : Dev nD) :
    Pipeline.afterTail₀ cfgs (dats m) 0 (V0 m) [hostOps1] c main_v2
      = fun _ => Cert.Jsd.meanOf (∑ i, Cert.Jsd.rowSums (argP m c) (argQ m c) i) := by
  unfold Pipeline.afterTail₀
  show StableHlo.after hostOps1 _ (Proc.devRef .tc main_v2) = _
  after_results
  have hA : Pipeline.withArrays (cfgs 0).spec c (V0 m c) (fun w => (dats m 0 c).arrAt w (cfgs 0).N) (Proc.devRef .tc main_v0)
      = Cert.Jsd.rowSums (argP m c) (argQ m c) :=
    (Pipeline.withArrays_arr spec0 launch0.win.arr_inj c _ _ 2).trans (RowArray.final_rows m c)
  rw [hA]
  funext i
  exact host_mean_apply _ i

/-- THE RUN: every weakly fair execution terminates with the result buffer at the mean of the summed row sums of the
    argument arrays, the arguments unchanged. -/
theorem run : θ_run defs (onTc (τ := τ) (main (F := Ideal))) ⟨m, fun _ => 0, ρ⟩ fun r => ∀ c : Dev nD,
      r.2.mem ((c.tc : Thread nD τ).loc main_v2)
        = (fun _ => Cert.Jsd.meanOf (∑ i, Cert.Jsd.rowSums (m ((c.tc : Thread nD τ).loc main_arg0)) (m ((c.tc : Thread nD τ).loc main_arg1)) i))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v2 (Pipeline.mem_restRefs_of main_v2 rfl (by decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Mean

end
-- ==== Proof.RefMean.lean ====
/-
  The reference's result is the mean of the term-by-term total.

  Read one operation at a time, the reference's element at an index is the term-by-term form of the two arguments'
  entries there (each `0.5` the same word, `exp` and `log` the extended-real functions); its sum over both axes from the
  zero word is the zero word plus the total over every index; the quotient by the word of 4096 is the mean.
-/
import proofs.«161677_j69707319214415_2_alg».proof.Proof.Gen.ReferenceIdeal.Read
import proofs.«161677_j69707319214415_2_alg».proof.Proof.JsdMean

noncomputable section

namespace Cert.ReferenceIdeal.Mean

open Cert.ReferenceIdeal Cert.ReferenceIdeal.Gen Cert.ReferenceIdeal.Read Idealize.ShloMosaic

/-- The reference's summand at an index is the term-by-term form there. -/
theorem summand_apply (x0 x1 : FVec Ideal S4096x32000 .f32) (j : S4096x32000.Idx) :
    val_main_v16 (F := Ideal) x0 x1 j = Cert.Jsd.termwise (x0 j) (x1 j) := by
  rw [val_main_v16_apply, val_main_v11_apply, val_main_v15_apply, val_main_v9_apply, val_main_v10_apply,
    val_main_v13_apply, val_main_v14_apply, val_main_v7_apply, val_main_v6_apply, val_main_v3_apply, val_main_v5_apply,
    val_main_v8_apply, val_main_v12_apply, val_main_v2_apply, val_main_v4_apply, val_main_v0_apply, val_main_v1_apply,
    val_main_cst_apply, val_main_cst_0_apply, val_main_cst_1_apply, val_main_cst_2_apply]
  rfl

/-- THE REFERENCE'S VALUE is the result. -/
theorem value_eq (x0 x1 : FVec Ideal S4096x32000 .f32) :
    val_main_v18 (F := Ideal) x0 x1 = Cert.Jsd.result x0 x1 := by
  funext i
  rw [val_main_v18_apply, val_main_v17_apply, val_main_cst_4_apply, val_main_cst_3_apply]
  unfold Cert.Jsd.result Cert.Jsd.meanOf
  simp only [summand_apply]
  rfl

end Cert.ReferenceIdeal.Mean

end
-- ==== Proof.FiniteEntries.lean ====
/-
  From the precondition to "every entry is a real number".

  The precondition says of each argument array that `|x| < +∞` at every entry (one conjunction of two reductions by
  `and` over all entries, the bound the word `0x7F800000`, which denotes `+∞`). An extended real whose absolute value
  `max x (−x)` is below `+∞` is neither infinity, so it is a real number: at `−∞` and at `+∞` the absolute value is `+∞`.
-/
import proofs.«161677_j69707319214415_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Jsd.Finite

open Idealize.ShloMosaic Cert.Pre_finite_inputs

variable [Cert.Pre_finite_inputs.Facts]

/-- The rank-0 shape has one index. -/
instance : Subsingleton Cert.Pre_finite_inputs.S_.Idx := ⟨fun _ _ => funext fun d => d.elim0⟩

/-- The word `0x7F800000` denotes `+∞`. -/
theorem inf_word : Ideal.ofBits .f32 0x7F800000#32 = ⊤ := by simp [Ideal.ofBits, Ideal.ieee]

/-- An extended real with `|x| < +∞` is a real number. -/
theorem real_of_abs_lt_inf (x : EReal)
    (h : FloatOps.cmpf (F := Ideal) (φ := .f32) .olt (FloatOps.hostAbsf (F := Ideal) (φ := .f32) x) (FloatOps.ofBits (F := Ideal) .f32 0x7F800000#32) = 1#1) :
    ∃ a : ℝ, x = (a : EReal) := by
  change Ideal.cmp .olt (max x (-x)) (Ideal.ofBits .f32 0x7F800000#32) = 1#1 at h
  rw [inf_word] at h
  unfold Ideal.cmp at h
  induction x using EReal.rec with
  | bot => simp at h
  | coe a => exact ⟨a, rfl⟩
  | top => simp at h

/-- Under the precondition every entry of both arrays is a real number. -/
theorem reals_of_pre (P Q : FVec Ideal S4096x32000 .f32) (h : Cert.Pre_finite_inputs.fn (F := Ideal) P Q = fun _ => 1#1) :
    (∀ j, ∃ a : ℝ, P j = (a : EReal)) ∧ (∀ j, ∃ b : ℝ, Q j = (b : EReal)) := by
  have h0 := congrFun h ValueIdx.ix0
  dsimp only [Cert.Pre_finite_inputs.fn] at h0
  obtain ⟨hp, hq⟩ := IntOp.andi_eq_one.mp h0
  have bound : ∀ j : S4096x32000.Idx,
      broadcastInDim S4096x32000 ![] Facts.bcast_S_S4096x32000 (constant (F := Ideal) S_ .f32 0x7F800000#32) j
        = FloatOps.ofBits (F := Ideal) .f32 0x7F800000#32 :=
    fun j => broadcastInDim_apply _ Facts.bcast_S_S4096x32000 _ j ValueIdx.ix0 (fun a => a.elim0)
  refine ⟨fun j => real_of_abs_lt_inf (P j) ?_, fun j => real_of_abs_lt_inf (Q j) ?_⟩
  · have e := Host.reduce_andi_all _ _ _ _ ValueIdx.ix0 hp j
    rw [← bound j]
    exact e
  · have e := Host.reduce_andi_all _ _ _ _ ValueIdx.ix0 hq j
    rw [← bound j]
    exact e

end Cert.Jsd.Finite

end
-- ==== Proof.lean ====
/-
  A fused Jensen–Shannon divergence over two [4096, 32000] arrays of log-probabilities `p`, `q`, against its plain
  formula.

  With `P = eᵖ`, `Q = e^q`, `h` one half and `M = h·P + h·Q`, the kernel sums, per row, the gathered term
  `h·(P·p + Q·q) − M·log M` over ten column blocks of 3200 lanes into a column accumulator (zeroed at a row block's
  first column block, copied out at its last), then sums the 4096 row sums on the host and divides by 4096. The
  reference sums the term-by-term form `(h·P)·(p − log M) + (h·Q)·(q − log M)` over the whole array and divides by 4096.

  The two terms agree on real arguments — expanding the second gives the first, every quantity being a real number
  when `p`, `q` are (the precondition: every entry of both arrays is finite) — and the two groupings of the sum agree
  because addition on the extended reals is commutative and associative. The final quotient is the same operation on
  the same word on both sides and is never evaluated.

  The three programs terminate without fault and leave their arguments unchanged (the kernel's two readings by the
  generated frame proofs, the reference by its generated run); no operation was rewritten when the kernel was read at
  the extended reals, so that conjunct is trivial.
-/
import proofs.«161677_j69707319214415_2_alg».proof.Defs
import proofs.«161677_j69707319214415_2_alg».proof.Proof.Gen.Kernel
import proofs.«161677_j69707319214415_2_alg».proof.Proof.Gen.Kernel.Skeleton
import proofs.«161677_j69707319214415_2_alg».proof.Proof.Gen.Kernel.Launch
import proofs.«161677_j69707319214415_2_alg».proof.Proof.Gen.Kernel.Points
import proofs.«161677_j69707319214415_2_alg».proof.Proof.Gen.Kernel.Frame
import proofs.«161677_j69707319214415_2_alg».proof.Proof.Gen.KernelIdeal
import proofs.«161677_j69707319214415_2_alg».proof.Proof.Gen.KernelIdeal.Skeleton
import proofs.«161677_j69707319214415_2_alg».proof.Proof.Gen.KernelIdeal.Launch
import proofs.«161677_j69707319214415_2_alg».proof.Proof.Gen.KernelIdeal.Points
import proofs.«161677_j69707319214415_2_alg».proof.Proof.Gen.KernelIdeal.Frame
import proofs.«161677_j69707319214415_2_alg».proof.Proof.Gen.ReferenceIdeal
import proofs.«161677_j69707319214415_2_alg».proof.Proof.Gen.ReferenceIdeal.Run
import proofs.«161677_j69707319214415_2_alg».proof.Proof.Gen.ReferenceIdeal.Read
import proofs.«161677_j69707319214415_2_alg».proof.Proof.Gen.Pre_finite_inputs
import proofs.«161677_j69707319214415_2_alg».proof.Proof.KernelMean
import proofs.«161677_j69707319214415_2_alg».proof.Proof.RefMean
import proofs.«161677_j69707319214415_2_alg».proof.Proof.FiniteEntries
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel at the extended reals rewrote no operation. -/
theorem preserves : Cert.preserves_Kernel_KernelIdeal := trivial

/-- From arguments that agree and are finite, both programs end at the mean of the term-by-term total: the kernel at the
    mean of its summed row sums, which is that mean on arrays of real numbers; the reference at it directly. -/
theorem algebraic : Cert.algebraic_KernelIdeal_ReferenceIdeal := by
  intro m ρ m' ρ' hpre hagree
  have hreal := fun c => Cert.Jsd.Finite.reals_of_pre _ _ (hpre c)
  refine ⟨fun c => Cert.Jsd.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩) (Cert.KernelIdeal.Mean.run m ρ)
    exact Cert.Jsd.mean_rowSums_eq _ _ (hreal c).1 (hreal c).2
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v18_eq, Cert.ReferenceIdeal.Mean.value_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
